-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x32 : Shape := ⟨3, ![8, 65536, 32]⟩
abbrev S8x32 : Shape := ⟨2, ![8, 32]⟩
abbrev S_ : Shape := ⟨0, ![]⟩

class Facts : Prop where
  bcast_S_S8x65536x32 : S_.BroadcastsInDim S8x65536x32 (![] : Fin 0 → Fin S8x65536x32.rank)
  reducesTo_S8x65536x32_S_d0_1_2 : S8x65536x32.ReducesTo [0, 1, 2] S_
  h_S_ : 0 < S_.numel
  bcast_S_S8x32 : S_.BroadcastsInDim S8x32 (![] : Fin 0 → Fin S8x32.rank)
  reducesTo_S8x32_S_d0_1 : S8x32.ReducesTo [0, 1] S_

variable [Facts]

def fn {F : FTy → Type} [FloatOps F] (main_arg0 : FVec F S8x65536x32 .f32) (main_arg1 : FVec F S8x32 .f32) : IVec S_ 1 :=
  let main_v0 : FVec F S8x65536x32 .f32 := Host.absf main_arg0
  let main_cst : FVec F S_ .f32 := constant S_ .f32 0x7F800000#32
  let main_v1 : FVec F S8x65536x32 .f32 := broadcastInDim S8x65536x32 ![] bcast_S_S8x65536x32 main_cst
  let main_v2 : IVec S8x65536x32 1 := cmpf .olt main_v0 main_v1
  let main_c : IVec S_ 1 := constantI S_ 1 1#1
  let main_v3 : IVec S_ 1 := (fun x v => Host.reduce IntOp.andi x v reducesTo_S8x65536x32_S_d0_1_2 h_S_) main_v2 main_c
  let main_v4 : FVec F S8x32 .f32 := Host.absf main_arg1
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  main_v8
-- ==== Kernel.lean ====
abbrev S8x65536x32 : Shape := ⟨3, ![8, 65536, 32]⟩
abbrev S8x32 : Shape := ⟨2, ![8, 32]⟩
abbrev S128x32 : Shape := ⟨2, ![128, 32]⟩
abbrev S32x32 : Shape := ⟨2, ![32, 32]⟩
abbrev S4x4 : Shape := ⟨2, ![4, 4]⟩
abbrev S131072x128 : Shape := ⟨2, ![131072, 128]⟩
abbrev S32x8 : Shape := ⟨2, ![32, 8]⟩
abbrev S4x1x4x1 : Shape := ⟨4, ![4, 1, 4, 1]⟩
abbrev S_ : Shape := ⟨0, ![]⟩
abbrev S1x32x1x8 : Shape := ⟨4, ![1, 32, 1, 8]⟩
abbrev S4x32x4x8 : Shape := ⟨4, ![4, 32, 4, 8]⟩
abbrev S8 : Shape := ⟨1, ![8]⟩
abbrev S1x8 : Shape := ⟨2, ![1, 8]⟩
abbrev S4x8 : Shape := ⟨2, ![4, 8]⟩
abbrev S32 : Shape := ⟨1, ![32]⟩
abbrev S1x32 : Shape := ⟨2, ![1, 32]⟩
abbrev S131072x32 : Shape := ⟨2, ![131072, 32]⟩
abbrev S4096x128 : Shape := ⟨2, ![4096, 128]⟩
abbrev S4096x32 : Shape := ⟨2, ![4096, 32]⟩
abbrev S8x65536x8 : Shape := ⟨3, ![8, 65536, 8]⟩

abbrev nBuf : Space → Nat
  | .hbm => 25
  | .vmem => 8
  | .smem => 0
  | _ => 0

abbrev bufTy : (tb : Table) → Fin (tcTables nBuf tb) → BufTy
  | .hbm, ⟨0, _⟩ => ⟨S8x65536x32, .f32⟩
  | .hbm, ⟨1, _⟩ => ⟨S8x32, .f32⟩
  | .hbm, ⟨2, _⟩ => ⟨S128x32, .f32⟩
  | .hbm, ⟨3, _⟩ => ⟨S32x32, .f32⟩
  | .hbm, ⟨4, _⟩ => ⟨S4x4, .f32⟩
  | .hbm, ⟨5, _⟩ => ⟨S131072x128, .f32⟩
  | .hbm, ⟨6, _⟩ => ⟨S32x8, .f32⟩
  | .hbm, ⟨7, _⟩ => ⟨S4x1x4x1, .f32⟩
  | .hbm, ⟨8, _⟩ => ⟨S_, .f32⟩
  | .hbm, ⟨9, _⟩ => ⟨S32x8, .f32⟩
  | .hbm, ⟨10, _⟩ => ⟨S32x8, .f32⟩
  | .hbm, ⟨11, _⟩ => ⟨S1x32x1x8, .f32⟩
  | .hbm, ⟨12, _⟩ => ⟨S4x32x4x8, .f32⟩
  | .hbm, ⟨13, _⟩ => ⟨S4x32x4x8, .f32⟩
  | .hbm, ⟨14, _⟩ => ⟨S4x32x4x8, .f32⟩
  | .hbm, ⟨15, _⟩ => ⟨S128x32, .f32⟩
  | .hbm, ⟨16, _⟩ => ⟨S8x32, .f32⟩
  | .hbm, ⟨17, _⟩ => ⟨S_, .f32⟩
  | .hbm, ⟨18, _⟩ => ⟨S8, .f32⟩
  | .hbm, ⟨19, _⟩ => ⟨S1x8, .f32⟩
  | .hbm, ⟨20, _⟩ => ⟨S4x8, .f32⟩
  | .hbm, ⟨21, _⟩ => ⟨S32, .f32⟩
  | .hbm, ⟨22, _⟩ => ⟨S1x32, .f32⟩
  | .hbm, ⟨23, _⟩ => ⟨S131072x32, .f32⟩
  | .hbm, ⟨24, _⟩ => ⟨S8x65536x8, .f32⟩
  | .local _ .vmem, ⟨0, _⟩ => ⟨S4096x128, .f32⟩
  | .local _ .vmem, ⟨1, _⟩ => ⟨S4096x128, .f32⟩
  | .local _ .vmem, ⟨2, _⟩ => ⟨S128x32, .f32⟩
  | .local _ .vmem, ⟨3, _⟩ => ⟨S128x32, .f32⟩
  | .local _ .vmem, ⟨4, _⟩ => ⟨S32x32, .f32⟩
  | .local _ .vmem, ⟨5, _⟩ => ⟨S1x32, .f32⟩
  | .local _ .vmem, ⟨6, _⟩ => ⟨S4096x32, .f32⟩
  | .local _ .vmem, ⟨7, _⟩ => ⟨S4096x32, .f32⟩
  | _, _ => ⟨S8x65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x65536x32_S131072x128 : S8x65536x32.ShapeCasts S131072x128
  transposes_S8x32_S32x8_1_0 : S8x32.Transposes [1, 0] S32x8
  bcast_S4x4_S4x1x4x1_0_2 : S4x4.BroadcastsInDim S4x1x4x1 (![0, 2] : Fin 2 → Fin S4x1x4x1.rank)
  bcast_S_S32x8 : S_.BroadcastsInDim S32x8 (![] : Fin 0 → Fin S32x8.rank)
  bcast_S32x8_S1x32x1x8_1_3 : S32x8.BroadcastsInDim S1x32x1x8 (![1, 3] : Fin 2 → Fin S1x32x1x8.rank)
  bcast_S4x1x4x1_S4x32x4x8_0_1_2_3 : S4x1x4x1.BroadcastsInDim S4x32x4x8 (![0, 1, 2, 3] : Fin 4 → Fin S4x32x4x8.rank)
  bcast_S1x32x1x8_S4x32x4x8_0_1_2_3 : S1x32x1x8.BroadcastsInDim S4x32x4x8 (![0, 1, 2, 3] : Fin 4 → Fin S4x32x4x8.rank)
  shapeCasts_S4x32x4x8_S128x32 : S4x32x4x8.ShapeCasts S128x32
  reducesTo_S8x32_S8_d1 : S8x32.ReducesTo [1] S8
  h_S_ : 0 < S_.numel
  shapeCasts_S8_S1x8 : S8.ShapeCasts S1x8
  bcast_S1x8_S4x8_0_1 : S1x8.BroadcastsInDim S4x8 (![0, 1] : Fin 2 → Fin S4x8.rank)
  shapeCasts_S4x8_S32 : S4x8.ShapeCasts S32
  shapeCasts_S32_S1x32 : S32.ShapeCasts S1x32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bitsLt_bf16_f32 : FTy.bits .bf16 < FTy.bits .f32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  shapeCasts_S131072x32_S8x65536x8 : S131072x32.ShapeCasts S8x65536x8
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S131072x32.size a
  hwx0_5 : ∀ i : grid0.Coords, EltTy.bits .f32 = 32 ∨ (Rect.block (s := S131072x32) S4096x32.size (cc0_transform_5 i) (hinb0_5 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S4096x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x65536x32 : Shape := ⟨3, ![8, 65536, 32]⟩
abbrev S8x32 : Shape := ⟨2, ![8, 32]⟩
abbrev S524288x32 : Shape := ⟨2, ![524288, 32]⟩
abbrev S524288x1x32 : Shape := ⟨3, ![524288, 1, 32]⟩
abbrev S1x8x32 : Shape := ⟨3, ![1, 8, 32]⟩
abbrev S524288x8x32 : Shape := ⟨3, ![524288, 8, 32]⟩
abbrev S_ : Shape := ⟨0, ![]⟩
abbrev S524288x8 : Shape := ⟨2, ![524288, 8]⟩
abbrev S524288 : Shape := ⟨1, ![524288]⟩
abbrev S524288x1 : Shape := ⟨2, ![524288, 1]⟩
abbrev S8x65536x8 : Shape := ⟨3, ![8, 65536, 8]⟩

abbrev nBuf : Space → Nat
  | .hbm => 29
  | .vmem => 0
  | .smem => 0
  | _ => 0

abbrev bufTy : (tb : Table) → Fin (tcTables nBuf tb) → BufTy
  | .hbm, ⟨0, _⟩ => ⟨S8x65536x32, .f32⟩
  | .hbm, ⟨1, _⟩ => ⟨S8x32, .f32⟩
  | .hbm, ⟨2, _⟩ => ⟨S524288x32, .f32⟩
  | .hbm, ⟨3, _⟩ => ⟨S524288x1x32, .f32⟩
  | .hbm, ⟨4, _⟩ => ⟨S1x8x32, .f32⟩
  | .hbm, ⟨5, _⟩ => ⟨S524288x8x32, .f32⟩
  | .hbm, ⟨6, _⟩ => ⟨S524288x8x32, .f32⟩
  | .hbm, ⟨7, _⟩ => ⟨S524288x8x32, .f32⟩
  | .hbm, ⟨8, _⟩ => ⟨S524288x8x32, .f32⟩
  | .hbm, ⟨9, _⟩ => ⟨S_, .f32⟩
  | .hbm, ⟨10, _⟩ => ⟨S524288x8, .f32⟩
  | .hbm, ⟨11, _⟩ => ⟨S_, .f32⟩
  | .hbm, ⟨12, _⟩ => ⟨S524288x8, .f32⟩
  | .hbm, ⟨13, _⟩ => ⟨S524288x8, .f32⟩
  | .hbm, ⟨14, _⟩ => ⟨S_, .f32⟩
  | .hbm, ⟨15, _⟩ => ⟨S524288x8, .f32⟩
  | .hbm, ⟨16, _⟩ => ⟨S524288x8, .f32⟩
  | .hbm, ⟨17, _⟩ => ⟨S_, .f32⟩
  | .hbm, ⟨18, _⟩ => ⟨S524288x8, .f32⟩
  | .hbm, ⟨19, _⟩ => ⟨S524288x8, .f32⟩
  | .hbm, ⟨20, _⟩ => ⟨S_, .f32⟩
  | .hbm, ⟨21, _⟩ => ⟨S524288x8, .f32⟩
  | .hbm, ⟨22, _⟩ => ⟨S524288x8, .f32⟩
  | .hbm, ⟨23, _⟩ => ⟨S_, .f32⟩
  | .hbm, ⟨24, _⟩ => ⟨S524288, .f32⟩
  | .hbm, ⟨25, _⟩ => ⟨S524288x1, .f32⟩
  | .hbm, ⟨26, _⟩ => ⟨S524288x8, .f32⟩
  | .hbm, ⟨27, _⟩ => ⟨S524288x8, .f32⟩
  | .hbm, ⟨28, _⟩ => ⟨S8x65536x8, .f32⟩
  | _, _ => ⟨S8x65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S8x65536x32_S524288x32 : S8x65536x32.ShapeCasts S524288x32
  bcast_S524288x32_S524288x1x32_0_2 : S524288x32.BroadcastsInDim S524288x1x32 (![0, 2] : Fin 2 → Fin S524288x1x32.rank)
  bcast_S8x32_S1x8x32_1_2 : S8x32.BroadcastsInDim S1x8x32 (![1, 2] : Fin 2 → Fin S1x8x32.rank)
  bcast_S524288x1x32_S524288x8x32_0_1_2 : S524288x1x32.BroadcastsInDim S524288x8x32 (![0, 1, 2] : Fin 3 → Fin S524288x8x32.rank)
  bcast_S1x8x32_S524288x8x32_0_1_2 : S1x8x32.BroadcastsInDim S524288x8x32 (![0, 1, 2] : Fin 3 → Fin S524288x8x32.rank)
  reducesTo_S524288x8x32_S524288x8_d2 : S524288x8x32.ReducesTo [2] S524288x8
  h_S_ : 0 < S_.numel
  bcast_S_S524288x8 : S_.BroadcastsInDim S524288x8 (![] : Fin 0 → Fin S524288x8.rank)
  reducesTo_S524288x8_S524288_d1 : S524288x8.ReducesTo [1] S524288
  bcast_S524288_S524288x1_0 : S524288.BroadcastsInDim S524288x1 (![0] : Fin 1 → Fin S524288x1.rank)
  bcast_S524288x1_S524288x8_0_1 : S524288x1.BroadcastsInDim S524288x8 (![0, 1] : Fin 2 → Fin S524288x8.rank)
  shapeCasts_S524288x8_S8x65536x8 : S524288x8.ShapeCasts S8x65536x8

variable [Facts₀]

class Facts : Prop extends Facts₀ where

variable [Facts]
-- ==== Proof.HostArrays.lean ====
import proofs.«113055_j81570018885867_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The points as launched, as a function on indices. -/
abbrev pts : S8x65536x32.Idx → EReal := m ((c : Thread nD τ).loc main_arg0)
/-- The centres as launched, as a function on indices. -/
abbrev cen : S8x32.Idx → EReal := m ((c : Thread nD τ).loc main_arg1)

/-! ## The literal words

The two dense 0/1 matrices and the 4 × 4 identity are given as tables of 32-bit words in row-major order. Each table
is read once, over its two coordinates: the word at (row, column) is the word of `1` where the block numbers agree and
the zero word elsewhere. Then the three words that occur (`1`, `0`, `-2`) are evaluated as extended reals. -/

section Literals

/-- The [128, 32] table at (l, o): the word of `1` when `l / 32 = o / 8`, the zero word otherwise. -/
theorem lit0t_eq : ∀ l : Fin 128, ∀ o : Fin 32,
    lit0t (l.val * 32 + o.val) = if l.val / 32 = o.val / 8 then 0x3F800000#32 else 0x00000000#32 := by
  decide +kernel

/-- The [32, 32] table at (j, o): the word of `1` when `j / 8 = o / 8`, the zero word otherwise. -/
theorem lit1t_eq : ∀ j : Fin 32, ∀ o : Fin 32,
    lit1t (j.val * 32 + o.val) = if j.val / 8 = o.val / 8 then 0x3F800000#32 else 0x00000000#32 := by
  decide +kernel

/-- The [4, 4] table at row-major position `4 a + b`: the word of `1` on the diagonal, the zero word off it. -/
theorem lit2_eq : ∀ a b : Fin 4, ∀ p : Fin 16, p.val = a.val * 4 + b.val →
    lit2 p = if a.val = b.val then 0x3F800000#32 else 0x00000000#32 := by
  decide

/-- The word `0x3F800000` is the real number one. -/
theorem ofBits_one : Ideal.ofBits .f32 0x3F800000#32 = 1 := by
  simp [Ideal.ofBits, Ideal.ieee, -EReal.coe_mul]; norm_num

/-- The word `0xC0000000` is the real number minus two. -/
theorem ofBits_neg_two : Ideal.ofBits .f32 0xC0000000#32 = ((-2 : ℝ) : EReal) := by
  simp [Ideal.ofBits, Ideal.ieee, -EReal.coe_mul]; norm_num

end Literals

/-! ## The five arrays as terms

Each array the host writes before the region, as the composition of the operations that produce it from the two
argument arrays and the literal tables. -/

/-- The lane-sum matrix is its table read in row-major order. -/
theorem e_cst : (V m c main_cst : S128x32.Idx → EReal) = (fun i => FloatOps.ofBits (F := Ideal) .f32 (lit0 (S128x32.rowMajor i))) := by
  show StableHlo.after hostOps0 (fun b => m (c, b)) (Proc.devRef .tc main_cst) = _
  after_results
  rfl

/-- The group-sum matrix is its table read in row-major order. -/
theorem e_cst0 : (V m c main_cst_0 : S32x32.Idx → EReal) = (fun i => FloatOps.ofBits (F := Ideal) .f32 (lit1 (S32x32.rowMajor i))) := by
  show StableHlo.after hostOps0 (fun b => m (c, b)) (Proc.devRef .tc main_cst_0) = _
  after_results
  rfl

/-- The packed points are the points reshaped from [8, 65536, 32] to [131072, 128]. -/
theorem e_v0 : (V m c main_v0 : S131072x128.Idx → EReal) = shapeCast _ (pts m c) shapeCasts_S8x65536x32_S131072x128 := by
  show StableHlo.after hostOps0 (fun b => m (c, b)) (Proc.devRef .tc main_v0) = _
  after_results
  rfl

/-- The tiled squared norms: the centres squared, summed over the features from the zero word, then reshaped to
    [1, 8], broadcast to [4, 8], and reshaped to [32] and to [1, 32]. -/
theorem e_v15 : (V m c main_v15 : S1x32.Idx → EReal) =
    shapeCast S1x32 (shapeCast S32 (broadcastInDim S4x8 ![0, 1] bcast_S1x8_S4x8_0_1
      (shapeCast S1x8 (Host.reduceAdd (F := Ideal) (mulf (F := Ideal) (s := S8x32) (φ := .f32) (cen m c) (cen m c))
        (constant (F := Ideal) S_ .f32 0x00000000#32) reducesTo_S8x32_S8_d1 h_S_) shapeCasts_S8_S1x8))
      shapeCasts_S4x8_S32) shapeCasts_S32_S1x32 := by
  show StableHlo.after hostOps0 (fun b => m (c, b)) (Proc.devRef .tc main_v15) = _
  after_results
  rfl

/-- The cross-term matrix: the 4 × 4 identity broadcast over [4, 32, 4, 8], times minus two times the transposed
    centres broadcast over the same shape, reshaped to [128, 32]. -/
theorem e_v9 : (V m c main_v9 : S128x32.Idx → EReal) =
    shapeCast S128x32
      (mulf (F := Ideal) (s := S4x32x4x8) (φ := .f32)
        (broadcastInDim S4x32x4x8 ![0, 1, 2, 3] bcast_S4x1x4x1_S4x32x4x8_0_1_2_3
          (broadcastInDim S4x1x4x1 ![0, 2] bcast_S4x4_S4x1x4x1_0_2
            (fun i => FloatOps.ofBits (F := Ideal) .f32 (lit2 (S4x4.rowMajor i)))))
        (broadcastInDim S4x32x4x8 ![0, 1, 2, 3] bcast_S1x32x1x8_S4x32x4x8_0_1_2_3
          (broadcastInDim S1x32x1x8 ![1, 3] bcast_S32x8_S1x32x1x8_1_3
            (mulf (F := Ideal) (s := S32x8) (φ := .f32)
              (broadcastInDim S32x8 ![] bcast_S_S32x8 (constant (F := Ideal) S_ .f32 0xC0000000#32))
              (transpose S32x8 [1, 0] (cen m c) transposes_S8x32_S32x8_1_0)))))
      shapeCasts_S4x32x4x8_S128x32 := by
  show StableHlo.after hostOps0 (fun b => m (c, b)) (Proc.devRef .tc main_v9) = _
  after_results
  rfl

/-! ## The five arrays read at an index -/

/-- Row `r`, lane `l` of the packed points is feature `l % 32` of point `4 r + l / 32`. -/
theorem packed_apply (r : Fin 131072) (l : Fin 128) :
    (V m c main_v0 : S131072x128.Idx → EReal) (ix2 r l)
      = pts m c
          (ix3 (⟨(r.val * 4 + l.val / 32) / 65536, by omega⟩ : Fin 8) (⟨(r.val * 4 + l.val / 32) % 65536, by omega⟩ : Fin 65536) (⟨l.val % 32, by omega⟩ : Fin 32)) := by
  refine (congrFun (e_v0 m c) (ix2 r l)).trans ?_
  refine shapeCast_apply (pts m c) shapeCasts_S8x65536x32_S131072x128 (ix2 r l) _ ?_
  rw [Shape.rowMajor_val_three, Shape.rowMajor_val_two]
  show ((r.val * 4 + l.val / 32) / 65536 * 65536 + (r.val * 4 + l.val / 32) % 65536) * 32 + l.val % 32 = r.val * 128 + l.val
  omega

/-- The block-diagonal matrix of the cross term: in block `l / 32 = o / 8` it is `-2 · c_{o % 8, l % 32}`, elsewhere `0 · (…)`. -/
theorem cross_apply (l : Fin 128) (o : Fin 32) :
    (V m c main_v9 : S128x32.Idx → EReal) (ix2 l o)
      = (if l.val / 32 = o.val / 8 then (1 : EReal) else 0)
          * (((-2 : ℝ) : EReal) * cen m c (ix2 (⟨o.val % 8, by omega⟩ : Fin 8) (⟨l.val % 32, by omega⟩ : Fin 32))) := by
  refine (congrFun (e_v9 m c) (ix2 l o)).trans ?_
  -- the [4,32,4,8] index with the same row-major position as (l, o)
  refine (shapeCast_apply _ shapeCasts_S4x32x4x8_S128x32 (ix2 l o)
    (ix4 (⟨l.val / 32, by omega⟩ : Fin 4) (⟨l.val % 32, by omega⟩ : Fin 32)
      (⟨o.val / 8, by omega⟩ : Fin 4) (⟨o.val % 8, by omega⟩ : Fin 8)) ?_).trans ?_
  · rw [Shape.rowMajor_val_four, Shape.rowMajor_val_two]
    show ((l.val / 32 * 32 + l.val % 32) * 4 + o.val / 8) * 8 + o.val % 8 = l.val * 32 + o.val
    omega
  refine (mulf_apply _ _ _).trans ?_
  refine congrArg₂ (· * ·) ?_ ?_
  · -- the 4 × 4 identity read at (l / 32, o / 8)
    refine (broadcastInDim_apply _ bcast_S4x1x4x1_S4x32x4x8_0_1_2_3 _ _
      (ix4 (⟨l.val / 32, by omega⟩ : Fin 4) (0 : Fin 1) (⟨o.val / 8, by omega⟩ : Fin 4) (0 : Fin 1))
      (fun a => match a with
        | ⟨0, _⟩ => by show l.val / 32 = if (4 : Nat) = 1 then 0 else l.val / 32; rw [if_neg (by decide)]
        | ⟨1, _⟩ => by show 0 = if (1 : Nat) = 1 then 0 else l.val % 32; rw [if_pos rfl]
        | ⟨2, _⟩ => by show o.val / 8 = if (4 : Nat) = 1 then 0 else o.val / 8; rw [if_neg (by decide)]
        | ⟨3, _⟩ => by show 0 = if (1 : Nat) = 1 then 0 else o.val % 8; rw [if_pos rfl])).trans ?_
    refine (broadcastInDim_apply _ bcast_S4x4_S4x1x4x1_0_2 _ _
      (ix2 (⟨l.val / 32, by omega⟩ : Fin 4) (⟨o.val / 8, by omega⟩ : Fin 4))
      (fun a => match a with
        | ⟨0, _⟩ => by show l.val / 32 = if (4 : Nat) = 1 then 0 else l.val / 32; rw [if_neg (by decide)]
        | ⟨1, _⟩ => by show o.val / 8 = if (4 : Nat) = 1 then 0 else o.val / 8; rw [if_neg (by decide)])).trans ?_
    have hp : (S4x4.rowMajor (ix2 (⟨l.val / 32, by omega⟩ : Fin 4) (⟨o.val / 8, by omega⟩ : Fin 4))).val
        = l.val / 32 * 4 + o.val / 8 := by
      rw [Shape.rowMajor_val_two]; rfl
    refine (congrArg (Ideal.ofBits .f32)
      (lit2_eq (⟨l.val / 32, by omega⟩ : Fin 4) (⟨o.val / 8, by omega⟩ : Fin 4) _ hp)).trans ?_
    show Ideal.ofBits .f32 (if l.val / 32 = o.val / 8 then 0x3F800000#32 else 0x00000000#32) = _
    by_cases h : l.val / 32 = o.val / 8
    · rw [if_pos h, if_pos h]; exact ofBits_one
    · rw [if_neg h, if_neg h]; exact Ideal.ofBits_zero_f32
  · -- minus two times the transposed centres read at (l % 32, o % 8)
    refine (broadcastInDim_apply _ bcast_S1x32x1x8_S4x32x4x8_0_1_2_3 _ _
      (ix4 (0 : Fin 1) (⟨l.val % 32, by omega⟩ : Fin 32) (0 : Fin 1) (⟨o.val % 8, by omega⟩ : Fin 8))
      (fun a => match a with
        | ⟨0, _⟩ => by show 0 = if (1 : Nat) = 1 then 0 else l.val / 32; rw [if_pos rfl]
        | ⟨1, _⟩ => by show l.val % 32 = if (32 : Nat) = 1 then 0 else l.val % 32; rw [if_neg (by decide)]
        | ⟨2, _⟩ => by show 0 = if (1 : Nat) = 1 then 0 else o.val / 8; rw [if_pos rfl]
        | ⟨3, _⟩ => by show o.val % 8 = if (8 : Nat) = 1 then 0 else o.val % 8; rw [if_neg (by decide)])).trans ?_
    refine (broadcastInDim_apply _ bcast_S32x8_S1x32x1x8_1_3 _ _
      (ix2 (⟨l.val % 32, by omega⟩ : Fin 32) (⟨o.val % 8, by omega⟩ : Fin 8))
      (fun a => match a with
        | ⟨0, _⟩ => by show l.val % 32 = if (32 : Nat) = 1 then 0 else l.val % 32; rw [if_neg (by decide)]
        | ⟨1, _⟩ => by show o.val % 8 = if (8 : Nat) = 1 then 0 else o.val % 8; rw [if_neg (by decide)])).trans ?_
    refine (mulf_apply _ _ _).trans ?_
    refine congrArg₂ (· * ·) ?_ ?_
    · refine (broadcastInDim_apply _ bcast_S_S32x8 _ _ ix0 (fun a => a.elim0)).trans ?_
      exact ofBits_neg_two
    · exact transpose_apply [1, 0] (cen m c) transposes_S8x32_S32x8_1_0
        (ix2 (⟨l.val % 32, by omega⟩ : Fin 32) (⟨o.val % 8, by omega⟩ : Fin 8))
        (ix2 (⟨o.val % 8, by omega⟩ : Fin 8) (⟨l.val % 32, by omega⟩ : Fin 32))
        (fun b => match b with | ⟨0, _⟩ => rfl | ⟨1, _⟩ => rfl)

/-- The 0/1 matrix that sums each point's 32 lanes into its own 8 output lanes. -/
theorem lanesum_apply (l : Fin 128) (o : Fin 32) :
    (V m c main_cst : S128x32.Idx → EReal) (ix2 l o) = if l.val / 32 = o.val / 8 then (1 : EReal) else 0 := by
  refine (congrFun (e_cst m c) (ix2 l o)).trans ?_
  have hp : (S128x32.rowMajor (ix2 l o)).val = l.val * 32 + o.val := by
    rw [Shape.rowMajor_val_two]; rfl
  show Ideal.ofBits .f32 (lit0t (S128x32.rowMajor (ix2 l o)).val) = _
  rw [hp]
  rw [lit0t_eq l o]
  split_ifs with h
  · exact ofBits_one
  · exact Ideal.ofBits_zero_f32

/-- The 0/1 matrix that sums each point's 8 output lanes. -/
theorem groupsum_apply (j : Fin 32) (o : Fin 32) :
    (V m c main_cst_0 : S32x32.Idx → EReal) (ix2 j o) = if j.val / 8 = o.val / 8 then (1 : EReal) else 0 := by
  refine (congrFun (e_cst0 m c) (ix2 j o)).trans ?_
  have hp : (S32x32.rowMajor (ix2 j o)).val = j.val * 32 + o.val := by
    rw [Shape.rowMajor_val_two]; rfl
  show Ideal.ofBits .f32 (lit1t (S32x32.rowMajor (ix2 j o)).val) = _
  rw [hp]
  rw [lit1t_eq j o]
  split_ifs with h
  · exact ofBits_one
  · exact Ideal.ofBits_zero_f32

/-- The centres' squared norms, tiled over the four packed points. -/
theorem sqnorm_apply (z : Fin 1) (o : Fin 32) :
    (V m c main_v15 : S1x32.Idx → EReal) (ix2 z o)
      = ∑ f : Fin 32, cen m c (ix2 (⟨o.val % 8, by omega⟩ : Fin 8) f)
          * cen m c (ix2 (⟨o.val % 8, by omega⟩ : Fin 8) f) := by
  refine (congrFun (e_v15 m c) (ix2 z o)).trans ?_
  refine (shapeCast_apply _ shapeCasts_S32_S1x32 (ix2 z o) (ix1 o) ?_).trans ?_
  · rw [Shape.rowMajor_val_one, Shape.rowMajor_val_two]
    show o.val = z.val * 32 + o.val
    omega
  refine (shapeCast_apply _ shapeCasts_S4x8_S32 (ix1 o)
    (ix2 (⟨o.val / 8, by omega⟩ : Fin 4) (⟨o.val % 8, by omega⟩ : Fin 8)) ?_).trans ?_
  · rw [Shape.rowMajor_val_two, Shape.rowMajor_val_one]
    show o.val / 8 * 8 + o.val % 8 = o.val
    omega
  refine (broadcastInDim_apply _ bcast_S1x8_S4x8_0_1 _
    (ix2 (⟨o.val / 8, by omega⟩ : Fin 4) (⟨o.val % 8, by omega⟩ : Fin 8))
    (ix2 (0 : Fin 1) (⟨o.val % 8, by omega⟩ : Fin 8)) (fun a => match a with
      | ⟨0, _⟩ => by show 0 = if (1 : Nat) = 1 then 0 else o.val / 8; rw [if_pos rfl]
      | ⟨1, _⟩ => by show o.val % 8 = if (8 : Nat) = 1 then 0 else o.val % 8; rw [if_neg (by decide)])).trans ?_
  refine (shapeCast_apply _ shapeCasts_S8_S1x8 (ix2 (0 : Fin 1) (⟨o.val % 8, by omega⟩ : Fin 8))
    (ix1 (⟨o.val % 8, by omega⟩ : Fin 8)) ?_).trans ?_
  · rw [Shape.rowMajor_val_one, Shape.rowMajor_val_two]
    show o.val % 8 = 0 * 8 + o.val % 8
    omega
  show Ideal.hostReduceAdd reducesTo_S8x32_S8_d1 (mulf (F := Ideal) (s := S8x32) (φ := .f32) (cen m c) (cen m c))
      (Ideal.ofBits .f32 0x00000000#32) (ix1 (⟨o.val % 8, by omega⟩ : Fin 8)) = _
  rw [Ideal.hostReduceAdd_single reducesTo_S8x32_S8_d1 (by decide), Ideal.ofBits_zero_f32, zero_add]
  refine Finset.sum_congr rfl fun f _ => ?_
  refine congrArg (fun i => cen m c i * cen m c i) ?_
  exact funext fun a => Fin.ext (by match a with | ⟨0, _⟩ => rfl | ⟨1, _⟩ => rfl)

end Cert.KernelIdeal.HostArrays

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Spec.lean ====
/-
  The specification: the soft assignment of each point to the cluster centres.

  For a point `x_{b,p} ∈ ℝ^32` and centres `c_0 … c_7 ∈ ℝ^32`, with the squared distance
  `d_k = Σ_f (x_f - c_{k,f})^2`, the Student-t kernel with one degree of freedom is
  `q_k = 1 / (1 + d_k)` and the result is `q_k / Σ_{k'} q_{k'}`.  Everything is stated on the
  extended reals, index by index, with the indices built from coordinates.
-/
import Idealize.ShloMosaic.PureOps.Ideal
import Idealize.ShloMosaic.Lib.ValueIdx

noncomputable section

namespace Cert.SoftAssign

open Idealize.ShloMosaic Idealize.ShloMosaic.ValueIdx

/-- The points: 8 batches of 65536 points with 32 features. -/
abbrev SX : Shape := ⟨3, ![8, 65536, 32]⟩
/-- The centres: 8 centres with 32 features. -/
abbrev SC : Shape := ⟨2, ![8, 32]⟩
/-- The result: per point, one weight per centre. -/
abbrev SO : Shape := ⟨3, ![8, 65536, 8]⟩

/-- The squared distance of point `(b, p)` to centre `k`. -/
def dist2 (x : SX.Idx → EReal) (c : SC.Idx → EReal) (b : Fin 8) (p : Fin 65536) (k : Fin 8) : EReal :=
  ∑ f : Fin 32, (x (ix3 b p f) - c (ix2 k f)) * (x (ix3 b p f) - c (ix2 k f))

/-- The Student-t kernel of that distance, `1 / (1 + d)`. -/
def kern (x : SX.Idx → EReal) (c : SC.Idx → EReal) (b : Fin 8) (p : Fin 65536) (k : Fin 8) : EReal :=
  Ideal.div 1 (1 + dist2 x c b p k)

/-- The soft assignment: each point's kernels normalised by their sum over the centres. -/
def assign (x : SX.Idx → EReal) (c : SC.Idx → EReal) : SO.Idx → EReal := fun i =>
  Ideal.div (kern x c (i 0) (i 1) (i 2)) (∑ k' : Fin 8, kern x c (i 0) (i 1) k')

/-! ## The packed form

Four consecutive points sit side by side in one row of 128 lanes, and a row of the result has 32 lanes: lane `o`
belongs to the point in position `o / 8` of the row and to centre `o % 8`. With a matrix `x1` for the cross term,
0/1 matrices `x2`, `x3` that add up the lanes of one point, and the row vector `x4` of the centres' squared norms: -/

/-- The float word of one, read on the extended reals. -/
abbrev oneW : EReal := Ideal.ofBits .f32 0x3F800000#32
/-- The float word of zero, read on the extended reals. -/
abbrev zeroW : EReal := Ideal.ofBits .f32 0x00000000#32

/-- `e(r, o) = 1 / (1 + max ((Σ_l x_{r,l}² · x2_{l,o} + Σ_l x_{r,l} · x1_{l,o}) + x4_o, 0))`. -/
def rowKern {n : ℕ} (x0 : (⟨2, ![n, 128]⟩ : Shape).Idx → EReal) (x1 x2 : (⟨2, ![128, 32]⟩ : Shape).Idx → EReal)
    (x4 : (⟨2, ![1, 32]⟩ : Shape).Idx → EReal) (r : Fin n) (o : Fin 32) : EReal :=
  Ideal.div oneW (oneW + max (((∑ l : Fin 128, (x0 (ix2 r l) * x0 (ix2 r l)) * x2 (ix2 l o))
      + ∑ l : Fin 128, x0 (ix2 r l) * x1 (ix2 l o)) + x4 (ix2 (0 : Fin 1) o)) zeroW)

/-- `e(r, o) / Σ_j e(r, j) · x3_{j,o}`, for every row and lane. -/
def packedOut {n : ℕ} (x0 : (⟨2, ![n, 128]⟩ : Shape).Idx → EReal) (x1 x2 : (⟨2, ![128, 32]⟩ : Shape).Idx → EReal)
    (x3 : (⟨2, ![32, 32]⟩ : Shape).Idx → EReal) (x4 : (⟨2, ![1, 32]⟩ : Shape).Idx → EReal) : (⟨2, ![n, 32]⟩ : Shape).Idx → EReal := fun i =>
  Ideal.div (rowKern x0 x1 x2 x4 (i 0) (i 1)) (∑ j : Fin 32, rowKern x0 x1 x2 x4 (i 0) j * x3 (ix2 j (i 1)))

end Cert.SoftAssign

end
-- ==== Proof.Payload.lean ====
/-
  The kernel body at one entry.

  One grid step works on 4096 packed rows. Row `r` holds four consecutive points side by side (128 lanes); output
  lane `o` belongs to the point in position `o / 8` of the row and to centre `o % 8`. With the row `x`, the three
  constant matrices `M` (cross term), `B` (lanes of a point to its 8 output lanes), `S` (8 output lanes of a point
  to themselves) and the row vector `w` of squared norms, the body computes

      e(r, o) = 1 / (1 + max (((Σ_l x_l² · B_{l,o}) + (Σ_l x_l · M_{l,o})) + w_o, 0))
      result(r, o) = e(r, o) / Σ_j e(r, j) · S_{j,o}

  on the extended reals: the two format changes are the identity there and each matrix product into the zero
  accumulator is the plain sum over the contracted axis.
-/
import proofs.«113055_j81570018885867_2_alg».proof.Proof.Gen.KernelIdeal.Skeleton
import proofs.«113055_j81570018885867_2_alg».proof.Proof.LibPlainDot
import proofs.«113055_j81570018885867_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.SoftAssign

/-- The same values as the vector the body holds before the normalisation (the printed operations, the casts of a
    vector to its own shape dropped). -/
def rowKernVec (x0 : FVec Ideal S4096x128 .f32) (x1 x2 : FVec Ideal S128x32 .f32) (x4 : FVec Ideal S1x32 .f32) : FVec Ideal S4096x32 .f32 :=
  divf (broadcast S4096x32 (Scalar.ofBits (F := Ideal) .f32 0x3F800000#32))
    (addf (broadcast S4096x32 (Scalar.ofBits (F := Ideal) .f32 0x3F800000#32))
      (maximumf
        (addf
          (addf (matmul dot_S4096x128_S128x32_S4096x32_1_0_0_1_n_n (some .fp32) (mulf x0 x0) x2 (constant (F := Ideal) S4096x32 .f32 0x00000000#32))
            (matmul dot_S4096x128_S128x32_S4096x32_1_0_0_1_n_n none (truncf .bf16 x0 bitsLt_bf16_f32) (truncf .bf16 x1 bitsLt_bf16_f32) (constant (F := Ideal) S4096x32 .f32 0x00000000#32)))
          (broadcastTo S4096x32 x4 broadcasts_S1x32_S4096x32))
        (broadcast S4096x32 (Scalar.ofBits (F := Ideal) .f32 0x00000000#32))))

/-- The payload is that vector divided, entry by entry, by its product with the third matrix. -/
theorem pay_eq (x0 : FVec Ideal S4096x128 .f32) (x1 x2 : FVec Ideal S128x32 .f32) (x3 : FVec Ideal S32x32 .f32) (x4 : FVec Ideal S1x32 .f32) :
    k0_pay1 (F := Ideal) x0 x1 x2 x3 x4
      = divf (rowKernVec x0 x1 x2 x4)
          (matmul dot_S4096x32_S32x32_S4096x32_1_0_0_1_n_n (some .fp32) (rowKernVec x0 x1 x2 x4) x3 (constant (F := Ideal) S4096x32 .f32 0x00000000#32)) := by
  unfold k0_pay1 rowKernVec
  simp only [shapeCast_self]

/-- The vector at an entry is `e(r, o)`. -/
theorem rowKernVec_apply (x0 : FVec Ideal S4096x128 .f32) (x1 x2 : FVec Ideal S128x32 .f32) (x4 : FVec Ideal S1x32 .f32) (r : Fin 4096) (o : Fin 32) :
    rowKernVec x0 x1 x2 x4 (ix2 r o) = rowKern (n := 4096) x0 x1 x2 x4 r o := by
  unfold rowKernVec rowKern
  have h1 := Cert.LibPlainDot.matmul_zero_apply (n := 4096) (a := 128) (b := 32) (some .fp32) (mulf x0 x0) x2 r o
  have h2 := Cert.LibPlainDot.matmul_zero_apply (n := 4096) (a := 128) (b := 32) none x0 x1 r o
  have h3 := broadcastTo_1b_ab_apply (a := 4096) (b := 32) x4 broadcasts_S1x32_S4096x32 r o
  show Ideal.div _ (_ + max ((matmul dot_S4096x128_S128x32_S4096x32_1_0_0_1_n_n (some .fp32) (mulf x0 x0) x2 (constant (F := Ideal) S4096x32 .f32 0x00000000#32) (ix2 r o)
      + matmul dot_S4096x128_S128x32_S4096x32_1_0_0_1_n_n none (truncf .bf16 x0 bitsLt_bf16_f32) (truncf .bf16 x1 bitsLt_bf16_f32) (constant (F := Ideal) S4096x32 .f32 0x00000000#32) (ix2 r o))
      + broadcastTo S4096x32 x4 broadcasts_S1x32_S4096x32 (ix2 r o)) _) = _
  refine congrArg (fun z => Ideal.div oneW (oneW + max z zeroW)) ?_
  refine congrArg₂ (· + ·) (congrArg₂ (· + ·) ?_ ?_) ?_
  · exact h1
  · exact h2
  · exact h3

/-- The body's result at row `r`, output lane `o`. -/
theorem pay_apply (x0 : FVec Ideal S4096x128 .f32) (x1 x2 : FVec Ideal S128x32 .f32) (x3 : FVec Ideal S32x32 .f32) (x4 : FVec Ideal S1x32 .f32) (r : Fin 4096) (o : Fin 32) :
    k0_pay1 (F := Ideal) x0 x1 x2 x3 x4 (ix2 r o)
      = packedOut (n := 4096) x0 x1 x2 x3 x4 (ix2 r o) := by
  rw [pay_eq]
  show _ = Ideal.div (rowKern (n := 4096) x0 x1 x2 x4 r o) (∑ j : Fin 32, rowKern (n := 4096) x0 x1 x2 x4 r j * x3 (ix2 j o))
  have h := Cert.LibPlainDot.matmul_zero_apply (n := 4096) (a := 32) (b := 32) (some .fp32) (rowKernVec x0 x1 x2 x4) x3 r o
  show Ideal.div (rowKernVec x0 x1 x2 x4 (ix2 r o)) (matmul dot_S4096x32_S32x32_S4096x32_1_0_0_1_n_n (some .fp32) (rowKernVec x0 x1 x2 x4) x3 (constant (F := Ideal) S4096x32 .f32 0x00000000#32) (ix2 r o)) = _
  rw [rowKernVec_apply]
  refine congrArg (Ideal.div _) (h.trans (Finset.sum_congr rfl fun j _ => ?_))
  rw [rowKernVec_apply]

end Cert.KernelIdeal.Payload

end
-- ==== Proof.Blocks.lean ====
/-
  From blocks to the array.

  Grid point `t` works on rows `4096 t … 4096 t + 4095` of the packed points and writes the same rows of the packed
  result; the four small operands are whole arrays at every point. What a point writes back is therefore the
  restriction to its rows of ONE function of the arrays as the region finds them, and the 32 points' row ranges
  cover all 131072 rows, so the array after the region is that function.
-/
import proofs.«113055_j81570018885867_2_alg».proof.Proof.Gen.KernelIdeal.Frame
import proofs.«113055_j81570018885867_2_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SoftAssign

variable (m : (ℓ : Loc nD τ sig) → Buf (Elt Ideal) ℓ)

/-- The packed result as one function of the five arrays the region finds. -/
def packedResult (c : Dev nD) : S131072x32.Idx → EReal :=
  packedOut (n := 131072) (V m c main_v0) (V m c main_v9) (V m c main_cst) (V m c main_cst_0) (V m c main_v15)

/-- The offsets of a whole-buffer access are all zero. -/
theorem zero_offsets : (![0, 0] : Fin 2 → Nat) = fun _ => 0 := funext fun a => by fin_cases a <;> rfl

/-- The index maps over the grid: the packed points' block and the result's block are both block `t` of rows
    (at most 31) and the only block of lanes; each small operand has one block, the whole array. -/
theorem index_facts : ∀ t : Fin cfg0.N, win0_0.index t (0 : Fin 2) = win0_5.index t (0 : Fin 2)
    ∧ win0_0.index t (1 : Fin 2) = 0
    ∧ win0_5.index t (1 : Fin 2) = 0
    ∧ win0_5.index t (0 : Fin 2) ≤ 31
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of rows of the result is some point's. -/
theorem index_onto : ∀ q : Fin 32, ∃ t : Fin cfg0.N, win0_5.index t = ![q.val, 0] :=
  (by decide +kernel : ∀ q : Fin 32, ∃ t : Fin grid0.N, win0_5.index t = ![q.val, 0])

/-- Row `T * 4096 + r` of the array, for block `T < 32` and row `r` of the block. -/
def rowOf (T : ℕ) (hT : T < 32) (r : Fin 4096) : Fin 131072 :=
  ⟨T * 4096 + r.val, by have hr := r.isLt; omega⟩

/-- `e(r, o)` of a block of rows is `e(T * 4096 + r, o)` of the array: a row's value reads that row of the packed
    points and the whole small operands only. -/
theorem rowKern_rows (A0 : S131072x128.Idx → EReal) (A1 A2 : S128x32.Idx → EReal) (A4 : S1x32.Idx → EReal)
    (x0 : S4096x128.Idx → EReal) (x1 x2 : S128x32.Idx → EReal) (x4 : S1x32.Idx → EReal) (T : ℕ) (hT : T < 32)
    (h0 : ∀ (r : Fin 4096) (l : Fin 128), x0 (ix2 r l) = A0 (ix2 (rowOf T hT r) l))
    (h1 : ∀ (l : Fin 128) (o : Fin 32), x1 (ix2 l o) = A1 (ix2 l o))
    (h2 : ∀ (l : Fin 128) (o : Fin 32), x2 (ix2 l o) = A2 (ix2 l o))
    (h4 : ∀ (z : Fin 1) (o : Fin 32), x4 (ix2 z o) = A4 (ix2 z o))
    (r : Fin 4096) (o : Fin 32) :
    rowKern (n := 4096) x0 x1 x2 x4 r o = rowKern (n := 131072) A0 A1 A2 A4 (rowOf T hT r) o := by
  unfold rowKern
  simp only [h0, h1, h2, h4]

/-- The packed result of a block of rows is the packed result of the array at those rows. -/
theorem packedOut_rows (A0 : S131072x128.Idx → EReal) (A1 A2 : S128x32.Idx → EReal) (A3 : S32x32.Idx → EReal) (A4 : S1x32.Idx → EReal)
    (x0 : S4096x128.Idx → EReal) (x1 x2 : S128x32.Idx → EReal) (x3 : S32x32.Idx → EReal) (x4 : S1x32.Idx → EReal) (T : ℕ) (hT : T < 32)
    (h0 : ∀ (r : Fin 4096) (l : Fin 128), x0 (ix2 r l) = A0 (ix2 (rowOf T hT r) l))
    (h1 : ∀ (l : Fin 128) (o : Fin 32), x1 (ix2 l o) = A1 (ix2 l o))
    (h2 : ∀ (l : Fin 128) (o : Fin 32), x2 (ix2 l o) = A2 (ix2 l o))
    (h3 : ∀ (j : Fin 32) (o : Fin 32), x3 (ix2 j o) = A3 (ix2 j o))
    (h4 : ∀ (z : Fin 1) (o : Fin 32), x4 (ix2 z o) = A4 (ix2 z o))
    (r : Fin 4096) (o : Fin 32) :
    packedOut (n := 4096) x0 x1 x2 x3 x4 (ix2 r o) = packedOut (n := 131072) A0 A1 A2 A3 A4 (ix2 (rowOf T hT r) o) := by
  show Ideal.div (rowKern (n := 4096) x0 x1 x2 x4 r o) (∑ j : Fin 32, rowKern (n := 4096) x0 x1 x2 x4 r j * x3 (ix2 j o))
    = Ideal.div (rowKern (n := 131072) A0 A1 A2 A4 (rowOf T hT r) o)
        (∑ j : Fin 32, rowKern (n := 131072) A0 A1 A2 A4 (rowOf T hT r) j * A3 (ix2 j o))
  rw [rowKern_rows A0 A1 A2 A4 x0 x1 x2 x4 T hT h0 h1 h2 h4 r o]
  refine congrArg (Ideal.div _) (Finset.sum_congr rfl fun j _ => ?_)
  rw [rowKern_rows A0 A1 A2 A4 x0 x1 x2 x4 T hT h0 h1 h2 h4 r j, h3]

/-- An index of the result is in point `t`'s block iff each coordinate is in the block's range on its axis. -/
theorem mem_blk (t : Fin cfg0.N) (i : S131072x32.Idx) :
    i ∈ ((cfg0.win 5).blk t).view.set ↔ ∀ a : Fin 2, win0_5.index t a * S4096x32.size a ≤ (i a).val ∧ (i a).val < win0_5.index t a * S4096x32.size a + S4096x32.size a := by
  show i ∈ ((View.whole main_v16).slice (win0_5.rect t)).set ↔ _
  rw [View.set_slice_whole, Rect.mem_set_unit]
  exact Iff.rfl

/-- Every index of the result is in the block of the point that owns its row. -/
theorem cover (i : S131072x32.Idx) :
    ∃ t : Fin cfg0.N, (cfg0.win 5).flush t = true ∧ i ∈ ((cfg0.win 5).blk t).view.set := by
  have hi0 : (i 0).val < 131072 := (i 0).isLt
  have hi1 : (i 1).val < 32 := (i 1).isLt
  obtain ⟨t, ht⟩ := index_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 32 ≤ (i 1).val ∧ (i 1).val < win0_5.index t (1 : Fin 2) * 32 + 32; omega

/-- What point `t` writes back is the restriction of the packed result to its rows. -/
theorem flushed_eq (c : Dev nD) (t : Fin cfg0.N) :
    (dats m 0 c).flushed 5 t = ((cfg0.win 5).blk t).view.read (Elt Ideal) (packedResult m c) := by
  show (cfg0.win 5).cut (grid0.coords t) ((dats m 0 c).after 5 t) = _
  rw [after0_5]
  unfold out0_5
  rw [View.canon_unit_zero zero_offsets]
  simp only [View.ld_unit_zero (S := S4096x128) zero_offsets, View.ld_unit_zero (S := S128x32) zero_offsets,
    View.ld_unit_zero (S := S32x32) zero_offsets, View.ld_unit_zero (S := S1x32) zero_offsets]
  obtain ⟨e0, e1, e2, e3, e4, e5, e6, e7, e8, e9, e10, e11⟩ := index_facts t
  have hT : win0_5.index t (0 : Fin 2) < 32 := by omega
  funext j
  obtain ⟨r, o, rfl⟩ : ∃ (r : Fin 4096) (o : Fin 32), j = ix2 r o := ⟨j 0, j 1, eq_ix2 j⟩
  have hr : r.val < 4096 := r.isLt
  have ho : o.val < 32 := o.isLt
  refine (Cert.KernelIdeal.Payload.pay_apply (iblk m c 0 t) (iblk m c 1 t) (iblk m c 2 t) (iblk m c 3 t) (iblk m c 4 t) r o).trans ?_
  refine (packedOut_rows (V m c main_v0) (V m c main_v9) (V m c main_cst) (V m c main_cst_0) (V m c main_v15)
    (iblk m c 0 t) (iblk m c 1 t) (iblk m c 2 t) (iblk m c 3 t) (iblk m c 4 t) (win0_5.index t (0 : Fin 2)) hT ?_ ?_ ?_ ?_ ?_ r o).trans ?_
  · intro r' l
    have hr' : r'.val < 4096 := r'.isLt
    have hl : l.val < 128 := l.isLt
    show V m c main_v0 (((cfg0.win 0).blk t).view.emb (ix2 r' l)) = _
    refine congrArg (V m c main_v0) (funext fun a => Fin.ext ?_)
    match a with
    | ⟨0, _⟩ => show win0_0.index t (0 : Fin 2) * 4096 + 1 * r'.val = win0_5.index t (0 : Fin 2) * 4096 + r'.val; omega
    | ⟨1, _⟩ => show win0_0.index t (1 : Fin 2) * 128 + 1 * l.val = l.val; omega
  · intro l o'
    have hl : l.val < 128 := l.isLt
    have ho' : o'.val < 32 := o'.isLt
    show V m c main_v9 (((cfg0.win 1).blk t).view.emb (ix2 l o')) = _
    refine congrArg (V m c main_v9) (funext fun a => Fin.ext ?_)
    match a with
    | ⟨0, _⟩ => show win0_1.index t (0 : Fin 2) * 128 + 1 * l.val = l.val; omega
    | ⟨1, _⟩ => show win0_1.index t (1 : Fin 2) * 32 + 1 * o'.val = o'.val; omega
  · intro l o'
    have hl : l.val < 128 := l.isLt
    have ho' : o'.val < 32 := o'.isLt
    show V m c main_cst (((cfg0.win 2).blk t).view.emb (ix2 l o')) = _
    refine congrArg (V m c main_cst) (funext fun a => Fin.ext ?_)
    match a with
    | ⟨0, _⟩ => show win0_2.index t (0 : Fin 2) * 128 + 1 * l.val = l.val; omega
    | ⟨1, _⟩ => show win0_2.index t (1 : Fin 2) * 32 + 1 * o'.val = o'.val; omega
  · intro j' o'
    have hj' : j'.val < 32 := j'.isLt
    have ho' : o'.val < 32 := o'.isLt
    show V m c main_cst_0 (((cfg0.win 3).blk t).view.emb (ix2 j' o')) = _
    refine congrArg (V m c main_cst_0) (funext fun a => Fin.ext ?_)
    match a with
    | ⟨0, _⟩ => show win0_3.index t (0 : Fin 2) * 32 + 1 * j'.val = j'.val; omega
    | ⟨1, _⟩ => show win0_3.index t (1 : Fin 2) * 32 + 1 * o'.val = o'.val; omega
  · intro z o'
    have hz : z.val < 1 := z.isLt
    have ho' : o'.val < 32 := o'.isLt
    show V m c main_v15 (((cfg0.win 4).blk t).view.emb (ix2 z o')) = _
    refine congrArg (V m c main_v15) (funext fun a => Fin.ext ?_)
    match a with
    | ⟨0, _⟩ => show win0_4.index t (0 : Fin 2) * 1 + 1 * z.val = z.val; omega
    | ⟨1, _⟩ => show win0_4.index t (1 : Fin 2) * 32 + 1 * o'.val = o'.val; omega
  · show packedResult m c (ix2 (rowOf (win0_5.index t (0 : Fin 2)) hT r) o) = packedResult m c (((cfg0.win 5).blk t).view.emb (ix2 r o))
    refine congrArg (packedResult m c) (funext fun a => Fin.ext ?_)
    match a with
    | ⟨0, _⟩ => show win0_5.index t (0 : Fin 2) * 4096 + r.val = win0_5.index t (0 : Fin 2) * 4096 + 1 * r.val; omega
    | ⟨1, _⟩ => show o.val = win0_5.index t (1 : Fin 2) * 32 + 1 * o.val; omega

/-- The packed result's array after the region is that function. -/
theorem final (c : Dev nD) : (dats m 0 c).arrAt 5 cfg0.N = packedResult m c :=
  (dats m 0 c).arrAt_eq_of_cover 5 (packedResult m c) (fun t _ => flushed_eq m c t) cover

end Cert.KernelIdeal.Blocks

end
-- ==== Proof.Tail.lean ====
/-
  The host operation after the region.

  After the region the program reshapes the packed result [131072, 32] to the result [8, 65536, 8]: both list the
  same numbers in the same row-major order, so entry `(b, p, k)` of the result is entry `(n / 4, 8 (n % 4) + k)` of
  the packed result, where `n = 65536 b + p` is the point's number.
-/
import proofs.«113055_j81570018885867_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The program's result is the reshape of the packed result's array after the region. -/
theorem result_eq (c : Dev nD) :
    Pipeline.afterTail₀ cfgs (dats m) 0 (V0 m) [hostOps1] c main_v17
      = shapeCast S8x65536x8 ((dats m 0 c).arrAt 5 cfg0.N) shapeCasts_S131072x32_S8x65536x8 := by
  unfold Pipeline.afterTail₀
  show StableHlo.after hostOps1 _ (Proc.devRef .tc main_v17) = _
  after_results
  exact congrArg (fun z => shapeCast S8x65536x8 z shapeCasts_S131072x32_S8x65536x8)
    (Pipeline.withArrays_arr spec0 launch0.win.arr_inj c _ _ 5)

/-- A reshape of the packed array read at entry `(b, p, k)`. -/
theorem reshape_apply (y : S131072x32.Idx → EReal) (b : Fin 8) (p : Fin 65536) (k : Fin 8) :
    shapeCast S8x65536x8 y shapeCasts_S131072x32_S8x65536x8 (ix3 b p k)
      = y (ix2 (⟨(b.val * 65536 + p.val) / 4, by omega⟩ : Fin 131072) (⟨(b.val * 65536 + p.val) % 4 * 8 + k.val, by omega⟩ : Fin 32)) := by
  refine shapeCast_apply y shapeCasts_S131072x32_S8x65536x8 _ _ ?_
  rw [Shape.rowMajor_val_two, Shape.rowMajor_val_three]
  have hb := b.isLt
  have hp := p.isLt
  have hk := k.isLt
  show (b.val * 65536 + p.val) / 4 * 32 + ((b.val * 65536 + p.val) % 4 * 8 + k.val) = (b.val * 65536 + p.val) * 8 + k.val
  omega

end Cert.KernelIdeal.Tail

end
-- ==== Proof.Algebra.lean ====
/-
  The algebra between the packed form and the specification.

  In a packed row the lanes of one point are picked out by 0/1 matrices that are 1 exactly on the point's own block.
  On the extended reals `a · 0 = 0` and `a · 1 = a` for every `a`, so a sum against such a matrix is the sum over
  the block (no finiteness needed). For real entries the three sums of a lane are

      Σ_f x_f² + Σ_f x_f · (-2 c_f) + Σ_f c_f² = Σ_f (x_f - c_f)²  ≥ 0,

  so the clamp at zero changes nothing and the lane's value is the Student-t kernel of the squared distance; the
  second 0/1 matrix then sums the eight kernels of the lane's own point.
-/
import proofs.«113055_j81570018885867_2_alg».proof.Proof.Spec
import Idealize.ShloMosaic.PureOps.Ideal.Laws
import Mathlib.Algebra.BigOperators.Fin
import Mathlib.Logic.Equiv.Fin.Basic

noncomputable section

open scoped BigOperators

namespace Cert.SoftAssign

open Idealize.ShloMosaic Idealize.ShloMosaic.ValueIdx

/-! ## Literal words -/

theorem zeroW_eq : zeroW = 0 := Ideal.ofBits_zero_f32

theorem oneW_eq : oneW = 1 := by
  show Ideal.ofBits .f32 0x3F800000#32 = 1
  simp [Ideal.ofBits, Ideal.ieee, -EReal.coe_mul]
  norm_num

/-! ## Indices from coordinates given as numbers -/

theorem ix3_of_val {n0 n1 n2 a b c : ℕ} {ha : a < n0} {hb : b < n1} {hc : c < n2} (a' : Fin n0) (b' : Fin n1) (c' : Fin n2)
    (e1 : a = a'.val) (e2 : b = b'.val) (e3 : c = c'.val) :
    (ix3 (⟨a, ha⟩ : Fin n0) (⟨b, hb⟩ : Fin n1) (⟨c, hc⟩ : Fin n2)) = ix3 a' b' c' := by
  subst e1 e2 e3; rfl

theorem ix2_of_val {n0 n1 a b : ℕ} {ha : a < n0} {hb : b < n1} (a' : Fin n0) (b' : Fin n1)
    (e1 : a = a'.val) (e2 : b = b'.val) : (ix2 (⟨a, ha⟩ : Fin n0) (⟨b, hb⟩ : Fin n1)) = ix2 a' b' := by
  subst e1 e2; rfl

/-! ## Sums -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `a` blocks of `m` lanes whose terms vanish outside block `g0` is the sum over that block. -/
theorem sum_block {a m : ℕ} (g0 : Fin a) (U : Fin m → EReal) (T : Fin (a * m) → EReal)
    (hT : ∀ (g : Fin a) (f : Fin m), T (finProdFinEquiv (g, f)) = if g = g0 then U f else 0) :
    ∑ l, T l = ∑ f, U f := by
  rw [← finProdFinEquiv.sum_comp T, Fintype.sum_prod_type]
  simp only [hT]
  rw [Finset.sum_eq_single g0]
  · simp
  · intro g _ hg; simp [hg]
  · intro h; exact absurd (Finset.mem_univ g0) h

theorem finProd_val {a m : ℕ} (g : Fin a) (f : Fin m) : (finProdFinEquiv (g, f)).val = f.val + m * g.val := rfl

/-- The block form used below: the terms of block `g0` are given lane by lane, the others vanish. -/
theorem sum_block' {a m : ℕ} (g0 : ℕ) (hg0 : g0 < a) (U : Fin m → EReal) (T : Fin (a * m) → EReal)
    (hin : ∀ (l : Fin (a * m)) (f : Fin m), l.val = f.val + m * g0 → T l = U f)
    (hout : ∀ l : Fin (a * m), l.val / m ≠ g0 → T l = 0) : ∑ l, T l = ∑ f, U f := by
  refine sum_block (⟨g0, hg0⟩ : Fin a) U T fun g f => ?_
  by_cases hg : g = ⟨g0, hg0⟩
  · rw [if_pos hg]; subst hg; exact hin _ f rfl
  · rw [if_neg hg]
    refine hout _ ?_
    rw [finProd_val, Nat.add_mul_div_left _ _ (Fin.pos f), Nat.div_eq_of_lt f.isLt, Nat.zero_add]
    exact fun h => hg (Fin.ext h)

/-! ## A lane of a packed row -/

section Row

variable (x : SX.Idx → EReal) (c : SC.Idx → EReal)
  (A0 : (⟨2, ![131072, 128]⟩ : Shape).Idx → EReal) (A1 A2 : (⟨2, ![128, 32]⟩ : Shape).Idx → EReal)
  (A3 : (⟨2, ![32, 32]⟩ : Shape).Idx → EReal) (A4 : (⟨2, ![1, 32]⟩ : Shape).Idx → EReal)

/-- The five arrays of the packed form, entry by entry, in terms of the points `x` and the centres `c`: the packed
    points, the block-diagonal matrix of the cross term, the two 0/1 block matrices, and the centres' squared norms. -/
structure Packed : Prop where
  pts : ∀ (r : Fin 131072) (l : Fin 128), A0 (ix2 r l)
      = x (ix3 (⟨(r.val * 4 + l.val / 32) / 65536, by omega⟩ : Fin 8) (⟨(r.val * 4 + l.val / 32) % 65536, by omega⟩ : Fin 65536) (⟨l.val % 32, by omega⟩ : Fin 32))
  cross : ∀ (l : Fin 128) (o : Fin 32), A1 (ix2 l o)
      = (if l.val / 32 = o.val / 8 then (1 : EReal) else 0) * (((-2 : ℝ) : EReal) * c (ix2 (⟨o.val % 8, by omega⟩ : Fin 8) (⟨l.val % 32, by omega⟩ : Fin 32)))
  lanes : ∀ (l : Fin 128) (o : Fin 32), A2 (ix2 l o) = if l.val / 32 = o.val / 8 then (1 : EReal) else 0
  group : ∀ (j o : Fin 32), A3 (ix2 j o) = if j.val / 8 = o.val / 8 then (1 : EReal) else 0
  norms : ∀ (z : Fin 1) (o : Fin 32), A4 (ix2 z o)
      = ∑ f : Fin 32, c (ix2 (⟨o.val % 8, by omega⟩ : Fin 8) f) * c (ix2 (⟨o.val % 8, by omega⟩ : Fin 8) f)

variable {x c A0 A1 A2 A3 A4}

/-- For real entries, lane `o` of row `R` holds the Student-t kernel of the distance between the point in
    position `o / 8` of the row and centre `o % 8`. -/
theorem rowKern_eq (H : Packed x c A0 A1 A2 A3 A4) (hx : ∀ i, ∃ r : ℝ, x i = (r : EReal)) (hc : ∀ j, ∃ r : ℝ, c j = (r : EReal))
    (R : Fin 131072) (o : Fin 32) (b : Fin 8) (p : Fin 65536) (k : Fin 8)
    (hn : R.val * 4 + o.val / 8 = b.val * 65536 + p.val) (hk : o.val % 8 = k.val) :
    rowKern A0 A1 A2 A4 R o = kern x c b p k := by
  choose xr hxr using fun f : Fin 32 => hx (ix3 b p f)
  choose cr hcr using fun f : Fin 32 => hc (ix2 k f)
  have hb := b.isLt
  have hp := p.isLt
  have ho := o.isLt
  -- the point's own lanes of the packed row, and the centre's entries
  have ex : ∀ (l : Fin 128) (f : Fin 32), l.val = f.val + 32 * (o.val / 8) → A0 (ix2 R l) = (xr f : EReal) := fun l f hl => by
    have hf := f.isLt
    rw [H.pts R l]
    exact (congrArg x (ix3_of_val b p f (by omega) (by omega) (by omega))).trans (hxr f)
  have ec : ∀ (l : Fin 128) (f : Fin 32), l.val = f.val + 32 * (o.val / 8) →
      c (ix2 (⟨o.val % 8, by omega⟩ : Fin 8) (⟨l.val % 32, by omega⟩ : Fin 32)) = (cr f : EReal) := fun l f hl => by
    have hf := f.isLt
    exact (congrArg c (ix2_of_val k f hk (by omega))).trans (hcr f)
  -- the three sums of the lane
  have s1 : ∑ l : Fin 128, (A0 (ix2 R l) * A0 (ix2 R l)) * A2 (ix2 l o) = ∑ f : Fin 32, (xr f : EReal) * (xr f : EReal) := by
    refine sum_block' (a := 4) (m := 32) (o.val / 8) (by omega) _ _ (fun l f hl => ?_) (fun l hl => ?_)
    · have hf := f.isLt
      rw [H.lanes l o, if_pos (by omega), mul_one, ex l f hl]
    · rw [H.lanes l o, if_neg hl, mul_zero]
  have s2 : ∑ l : Fin 128, A0 (ix2 R l) * A1 (ix2 l o) = ∑ f : Fin 32, (xr f : EReal) * (((-2 : ℝ) : EReal) * (cr f : EReal)) := by
    refine sum_block' (a := 4) (m := 32) (o.val / 8) (by omega) _ _ (fun l f hl => ?_) (fun l hl => ?_)
    · have hf := f.isLt
      rw [H.cross l o, if_pos (by omega), one_mul, ex l f hl, ec l f hl]
    · rw [H.cross l o, if_neg hl, zero_mul, mul_zero]
  have s3 : A4 (ix2 (0 : Fin 1) o) = ∑ f : Fin 32, (cr f : EReal) * (cr f : EReal) := by
    rw [H.norms 0 o]
    refine Finset.sum_congr rfl fun f _ => ?_
    rw [show ix2 (⟨o.val % 8, by omega⟩ : Fin 8) f = ix2 k f from congrArg (fun z => ix2 z f) (Fin.ext hk), hcr f]
  -- the expansion of the square, on the reals
  have hsum : ((∑ f : Fin 32, (xr f : EReal) * (xr f : EReal)) + ∑ f : Fin 32, (xr f : EReal) * (((-2 : ℝ) : EReal) * (cr f : EReal)))
      + ∑ f : Fin 32, (cr f : EReal) * (cr f : EReal) = ((∑ f : Fin 32, (xr f - cr f) * (xr f - cr f) : ℝ) : EReal) := by
    have e1 : ∑ f : Fin 32, (xr f : EReal) * (xr f : EReal) = ((∑ f : Fin 32, xr f * xr f : ℝ) : EReal) := by
      rw [coe_sum]; exact Finset.sum_congr rfl fun f _ => (EReal.coe_mul _ _).symm
    have e2 : ∑ f : Fin 32, (xr f : EReal) * (((-2 : ℝ) : EReal) * (cr f : EReal)) = ((∑ f : Fin 32, xr f * (-2 * cr f) : ℝ) : EReal) := by
      rw [coe_sum]; exact Finset.sum_congr rfl fun f _ => by rw [EReal.coe_mul, EReal.coe_mul]
    have e3 : ∑ f : Fin 32, (cr f : EReal) * (cr f : EReal) = ((∑ f : Fin 32, cr f * cr f : ℝ) : EReal) := by
      rw [coe_sum]; exact Finset.sum_congr rfl fun f _ => (EReal.coe_mul _ _).symm
    rw [e1, e2, e3, ← EReal.coe_add, ← EReal.coe_add, ← Finset.sum_add_distrib, ← Finset.sum_add_distrib]
    exact congrArg _ (Finset.sum_congr rfl fun f _ => by ring)
  have hdist : dist2 x c b p k = ((∑ f : Fin 32, (xr f - cr f) * (xr f - cr f) : ℝ) : EReal) := by
    unfold dist2
    rw [coe_sum]
    exact Finset.sum_congr rfl fun f _ => by rw [hxr f, hcr f, ← EReal.coe_sub, ← EReal.coe_mul]
  have hnn : (0 : EReal) ≤ ((∑ f : Fin 32, (xr f - cr f) * (xr f - cr f) : ℝ) : EReal) :=
    EReal.coe_nonneg.mpr (Finset.sum_nonneg fun f _ => mul_self_nonneg _)
  unfold rowKern kern
  rw [s1, s2, s3, hsum, hdist, oneW_eq, zeroW_eq, max_eq_left hnn]

/-- The packed result, read where entry `(b, p, k)` of the result sits — row `n / 4`, lane `8 (n % 4) + k` for the point
    number `n = 65536 b + p` —, is the soft assignment. -/
theorem packed_is_assign (H : Packed x c A0 A1 A2 A3 A4) (hx : ∀ i, ∃ r : ℝ, x i = (r : EReal)) (hc : ∀ j, ∃ r : ℝ, c j = (r : EReal))
    (b : Fin 8) (p : Fin 65536) (k : Fin 8) :
    packedOut A0 A1 A2 A3 A4 (ix2 (⟨(b.val * 65536 + p.val) / 4, by omega⟩ : Fin 131072) (⟨(b.val * 65536 + p.val) % 4 * 8 + k.val, by omega⟩ : Fin 32))
      = assign x c (ix3 b p k) := by
  have hb := b.isLt
  have hp := p.isLt
  have hk := k.isLt
  show Ideal.div (rowKern A0 A1 A2 A4 (⟨(b.val * 65536 + p.val) / 4, by omega⟩ : Fin 131072) (⟨(b.val * 65536 + p.val) % 4 * 8 + k.val, by omega⟩ : Fin 32))
      (∑ j : Fin 32, rowKern A0 A1 A2 A4 (⟨(b.val * 65536 + p.val) / 4, by omega⟩ : Fin 131072) j
        * A3 (ix2 j (⟨(b.val * 65536 + p.val) % 4 * 8 + k.val, by omega⟩ : Fin 32)))
    = Ideal.div (kern x c b p k) (∑ k' : Fin 8, kern x c b p k')
  rw [rowKern_eq H hx hc _ _ b p k (by show (b.val * 65536 + p.val) / 4 * 4 + ((b.val * 65536 + p.val) % 4 * 8 + k.val) / 8 = _; omega)
    (by show ((b.val * 65536 + p.val) % 4 * 8 + k.val) % 8 = _; omega)]
  refine congrArg (Ideal.div _) ?_
  refine sum_block' (a := 4) (m := 8) ((b.val * 65536 + p.val) % 4) (by omega) _ _ (fun j k' hj => ?_) (fun j hj => ?_)
  · have hk' := k'.isLt
    rw [H.group j _, if_pos (by show j.val / 8 = ((b.val * 65536 + p.val) % 4 * 8 + k.val) / 8; omega), mul_one]
    exact rowKern_eq H hx hc _ j b p k' (by show (b.val * 65536 + p.val) / 4 * 4 + j.val / 8 = _; omega) (by omega)
  · rw [H.group j _, if_neg (by show ¬ j.val / 8 = ((b.val * 65536 + p.val) % 4 * 8 + k.val) / 8; omega), mul_zero]

end Row

end Cert.SoftAssign

end
-- ==== Proof.KernelValue.lean ====
/-
  The idealized kernel's result.

  The five arrays the region finds are the packed form of the points and the centres; the region leaves the packed
  result, one function of those five arrays, in its output array; the reshape after the region lists it as
  [8, 65536, 8]. For real inputs that is the soft assignment of the specification.
-/
import proofs.«113055_j81570018885867_2_alg».proof.Proof.HostArrays
import proofs.«113055_j81570018885867_2_alg».proof.Proof.Blocks
import proofs.«113055_j81570018885867_2_alg».proof.Proof.Tail
import proofs.«113055_j81570018885867_2_alg».proof.Proof.Algebra

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.SoftAssign Cert.KernelIdeal.HostArrays

variable (m : (ℓ : Loc nD τ sig) → Buf (Elt Ideal) ℓ)

/-- The five arrays the region finds, entry by entry, are the packed form of the points and the centres. -/
theorem packed_facts (c : Dev nD) :
    Packed (pts m c) (cen m c) (V m c main_v0) (V m c main_v9) (V m c main_cst) (V m c main_cst_0) (V m c main_v15) :=
  ⟨packed_apply m c, cross_apply m c, lanesum_apply m c, groupsum_apply m c, sqnorm_apply m c⟩

/-- The program's result, for real inputs, is the soft assignment. -/
theorem result_is_assign (c : Dev nD) (hx : ∀ i, ∃ r : ℝ, pts m c i = (r : EReal)) (hc : ∀ j, ∃ r : ℝ, cen m c j = (r : EReal)) :
    Pipeline.afterTail₀ cfgs (dats m) 0 (V0 m) [hostOps1] c main_v17 = assign (pts m c) (cen m c) := by
  rw [Tail.result_eq, Blocks.final]
  funext i
  obtain ⟨b, p, k, rfl⟩ : ∃ (b : Fin 8) (p : Fin 65536) (k : Fin 8), i = ix3 b p k := ⟨i 0, i 1, i 2, eq_ix3 i⟩
  rw [Tail.reshape_apply]
  exact packed_is_assign (packed_facts m c) hx hc b p k

/-- Every weakly fair execution of the idealized kernel from real inputs terminates with the soft assignment in its
    result and its arguments unchanged. -/
theorem run (ρ : Dev nD → PrngReg)
    (hfin : ∀ c : Dev nD, (∀ i, ∃ r : ℝ, pts m c i = (r : EReal)) ∧ (∀ j, ∃ r : ℝ, cen m c j = (r : EReal))) :
    θ_run defs (onTc (τ := τ) (main (F := Ideal))) ⟨m, fun _ => 0, ρ⟩ (fun r => ∀ c : Dev nD,
      r.2.mem ((c.tc : Thread nD τ).loc main_v17) = assign (pts m c) (cen m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v17 (Pipeline.mem_restRefs_of main_v17 (by decide) (by decide))).trans (result_is_assign m c (hfin c).1 (hfin c).2),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelValue

end
-- ==== Proof.RefValue.lean ====
import proofs.«113055_j81570018885867_2_alg».proof.Proof.Gen.ReferenceIdeal.Read
import proofs.«113055_j81570018885867_2_alg».proof.Proof.Spec
import Idealize.ShloMosaic.Lib.ValueIdx

noncomputable section

namespace Cert.ReferenceIdeal.RefValue

open Cert.ReferenceIdeal Idealize.ShloMosaic Idealize.ShloMosaic.ValueIdx

/-- The word `0x3F800000` denotes the real number one. -/
theorem ofBits_one_f32 : Ideal.ofBits .f32 0x3F800000#32 = 1 := by
  simp [Ideal.ofBits, Ideal.ieee, -EReal.coe_mul]
  norm_num

/-- Dividing by one changes nothing, at the infinities too. -/
theorem div_one (d : EReal) : Ideal.div d 1 = d := by
  have h := Ideal.div_coe (y := 1) one_ne_zero d
  rw [EReal.coe_one] at h
  rw [h]
  simp

/-- The first power of an extended real is itself, at the infinities too. -/
theorem pow_one (q : EReal) : Ideal.pow q 1 = q := by
  induction q using EReal.rec with
  | bot => exact Ideal.pow_bot 1
  | top =>
    rw [Ideal.pow_top, if_pos zero_lt_one]
  | coe r =>
    rw [← EReal.coe_one, Ideal.pow_coe_coe]
    exact congrArg _ (Real.rpow_one r)

/-- The flat row `b * 65536 + p` of the point `(b, p)`. -/
def row (b : Fin 8) (p : Fin 65536) : Fin 524288 :=
  ⟨b.val * 65536 + p.val, by have hb := b.isLt; have hp := p.isLt; omega⟩

/-- Reading the flattened points at row `b * 65536 + p`, feature `f`, reads point `(b, p)` at `f`. -/
theorem idx_x (b : Fin 8) (p : Fin 65536) (k : Fin 8) (f : Fin 32) :
    Read.idx_main_v0 (Read.idx_main_v1 (Read.idx_main_v3 (Read.idx_main_v7 (ix2 (row b p) k) f))) = ix3 b p f := by
  have hb := b.isLt; have hp := p.isLt; have hf := f.isLt
  funext a
  match a with
  | ⟨0, _⟩ => exact Fin.ext (by show ((b.val * 65536 + p.val) * 32 + f.val) / 2097152 = b.val; omega)
  | ⟨1, _⟩ => exact Fin.ext (by show ((b.val * 65536 + p.val) * 32 + f.val) / 32 % 65536 = p.val; omega)
  | ⟨2, _⟩ => exact Fin.ext (by show ((b.val * 65536 + p.val) * 32 + f.val) % 32 = f.val; omega)

/-- Reading the broadcast centres at any row, centre `k`, feature `f`, reads centre `k` at `f`. -/
theorem idx_c (n : Fin 524288) (k : Fin 8) (f : Fin 32) :
    Read.idx_main_v2 (Read.idx_main_v4 (Read.idx_main_v7 (ix2 n k) f)) = ix2 k f := by
  funext a
  match a with
  | ⟨0, _⟩ => rfl
  | ⟨1, _⟩ => rfl

/-- One squared difference of the reference is the specification's. -/
theorem sq_eq (x0 : (⟨S8x65536x32, .f32⟩ : BufTy).Contents (Elt Ideal)) (x1 : (⟨S8x32, .f32⟩ : BufTy).Contents (Elt Ideal))
    (b : Fin 8) (p : Fin 65536) (k : Fin 8) (f : Fin 32) :
    Read.val_main_v6 (F := Ideal) x0 x1 (Read.idx_main_v7 (ix2 (row b p) k) f)
      = (x0 (ix3 b p f) - x1 (ix2 k f)) * (x0 (ix3 b p f) - x1 (ix2 k f)) := by
  rw [Read.val_main_v6_apply, Read.val_main_v5_apply, Read.val_main_v3_apply, Read.val_main_v1_apply,
    Read.val_main_v0_apply, Read.val_main_v4_apply, Read.val_main_v2_apply, idx_x, idx_c]
  rfl

/-- The reference's kernel value at row `b * 65536 + p`, centre `k`, is the specification's. -/
theorem kern_eq (x0 : (⟨S8x65536x32, .f32⟩ : BufTy).Contents (Elt Ideal)) (x1 : (⟨S8x32, .f32⟩ : BufTy).Contents (Elt Ideal))
    (b : Fin 8) (p : Fin 65536) (k : Fin 8) :
    Read.val_main_v15 (F := Ideal) x0 x1 (ix2 (row b p) k) = Cert.SoftAssign.kern x0 x1 b p k := by
  rw [Read.val_main_v15_apply, Read.val_main_v13_apply, Read.val_main_v14_apply, Read.val_main_cst_3_apply,
    Read.val_main_v12_apply, Read.val_main_cst_2_apply, Read.val_main_v11_apply, Read.val_main_v10_apply,
    Read.val_main_cst_1_apply, Read.val_main_v9_apply, Read.val_main_v7_apply, Read.val_main_cst_apply,
    Read.val_main_v8_apply, Read.val_main_cst_0_apply]
  simp only [Ideal.hostPowf_def, Ideal.hostDivf_def, Ideal.addf_def, Ideal.ofBits_def, ofBits_one_f32,
    Ideal.ofBits_zero_f32, zero_add, div_one, pow_one]
  unfold Cert.SoftAssign.kern Cert.SoftAssign.dist2
  exact congrArg (fun s => Ideal.div 1 (1 + s)) (Finset.sum_congr rfl fun f _ => sq_eq x0 x1 b p k f)

/-- The reference's result, at every index, is the soft assignment of the specification
    (no finiteness needed: `d / 1 = d` and `q ^ 1 = q` hold for every extended real). -/
theorem ref_is_assign (x0 : (⟨S8x65536x32, .f32⟩ : BufTy).Contents (Elt Ideal)) (x1 : (⟨S8x32, .f32⟩ : BufTy).Contents (Elt Ideal)) :
    Cert.ReferenceIdeal.Read.val_main_v20 (F := Ideal) x0 x1 = Cert.SoftAssign.assign x0 x1 := by
  funext i
  obtain ⟨b, p, k, rfl⟩ : ∃ (b : Fin 8) (p : Fin 65536) (k : Fin 8), i = ix3 b p k := ⟨i 0, i 1, i 2, eq_ix3 i⟩
  have hb := b.isLt; have hp := p.isLt; have hk := k.isLt
  have hidx : Read.idx_main_v20 (ix3 b p k) = ix2 (row b p) k := by
    funext a
    match a with
    | ⟨0, _⟩ => exact Fin.ext (by show ((b.val * 65536 + p.val) * 8 + k.val) / 8 = b.val * 65536 + p.val; omega)
    | ⟨1, _⟩ => exact Fin.ext (by show ((b.val * 65536 + p.val) * 8 + k.val) % 8 = k.val; omega)
  have hsum : ∀ k' : Fin 8,
      Read.idx_main_v16 (Read.idx_main_v17 (Read.idx_main_v18 (ix2 (row b p) k))) k' = ix2 (row b p) k' := by
    intro k'
    funext a
    match a with
    | ⟨0, _⟩ => rfl
    | ⟨1, _⟩ => rfl
  rw [Read.val_main_v20_apply, hidx, Read.val_main_v19_apply, Read.val_main_v18_apply, Read.val_main_v17_apply,
    Read.val_main_v16_apply, Read.val_main_cst_4_apply, kern_eq]
  simp only [Ideal.hostDivf_def, Ideal.ofBits_def, Ideal.ofBits_zero_f32, zero_add]
  unfold Cert.SoftAssign.assign
  refine congrArg (Ideal.div _) (Finset.sum_congr rfl fun k' _ => ?_)
  rw [hsum k', kern_eq]

end Cert.ReferenceIdeal.RefValue

end
-- ==== Proof.Finite.lean ====
import proofs.«113055_j81570018885867_2_alg».proof.Proof.Gen.Pre_finite_inputs
import proofs.«113055_j81570018885867_2_alg».proof.Pre_finite_inputs
import proofs.«113055_j81570018885867_2_alg».proof.Proof.Spec
import Idealize.ShloMosaic.Lib.ValueIdx
import Idealize.ShloMosaic.Lib.ReduceAll

noncomputable section

namespace Cert.SoftAssign

open Idealize.ShloMosaic

/-- The scalar shape has exactly one index. -/
instance subsingleton_scalar_idx : Subsingleton Cert.Pre_finite_inputs.S_.Idx :=
  ⟨fun a b => funext fun d => d.elim0⟩

/-- An extended real whose absolute value `max x (-x)` is strictly below `+∞` is a real number:
    at either infinity the absolute value is `+∞` itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of both inputs is a real number. -/
theorem real_of_finite [Cert.Pre_finite_inputs.Facts] (x : SX.Idx → EReal) (c : SC.Idx → EReal)
    (h : Cert.Pre_finite_inputs.fn (F := Ideal) x c = fun _ => 1#1) :
    (∀ i, ∃ r : ℝ, x i = (r : EReal)) ∧ (∀ j, ∃ r : ℝ, c j = (r : EReal)) := by
  have e := congrFun h ValueIdx.ix0
  dsimp only [Cert.Pre_finite_inputs.fn] at e
  obtain ⟨hx, hc⟩ := IntOp.andi_eq_one.1 e
  refine ⟨fun i => ?_, fun j => ?_⟩
  · exact real_of_abs_lt_top (x i) (Host.reduce_andi_all _ _ _ _ _ hx i)
  · exact real_of_abs_lt_top (c j) (Host.reduce_andi_all _ _ _ _ _ hc j)

end Cert.SoftAssign

end
-- ==== Proof.lean ====
/-
  A soft cluster assignment: for each of 8 × 65536 points `x ∈ ℝ^32` and 8 centres `c_k ∈ ℝ^32`, the weights
  `q_k / Σ_k' q_k'` with `q_k = 1 / (1 + ‖x - c_k‖²)` (a Student-t kernel with one degree of freedom).

  The reference forms `‖x - c_k‖²` as the sum of the squared differences, divides by one, raises to the power one and
  normalises; on the extended reals `d / 1 = d` and `q ^ 1 = q` for every value, so its result is the specification
  (RefValue.lean, over the generated run of the reference read one operation at a time).

  The kernel packs four consecutive points into one 128-lane row and gets every per-point sum from a matrix product with
  a block-diagonal matrix: `‖x‖²` from the squares and a 0/1 matrix, `-2 x·c_k` from a block-diagonal copy of `-2 cᵀ`,
  `‖c_k‖²` added from the host, the result clamped at zero, and the normalising sum from a second 0/1 matrix. On the
  extended reals a product with 0 is 0 and with 1 is the other factor, so each such product is the sum over the point's own
  block (Algebra.lean `sum_block`); for REAL inputs — here the precondition is used (Finite.lean) —
  `‖x‖² - 2 x·c + ‖c‖² = ‖x - c‖² ≥ 0`, the clamp changes nothing and each lane holds `q_k` (Algebra.lean `rowKern_eq`,
  `packed_is_assign`). What the region finds in its five operand arrays is read off the host operations before it
  (HostArrays.lean), what one grid step writes from the body's one payload (Payload.lean), the array after all 32 steps
  from the steps' row ranges covering every row (Blocks.lean), and the program's result from the reshape after the region
  (Tail.lean); KernelValue.lean joins them over the generated frame run.

  The two kernel frames are the generated ones; the reference's frame is its generated run with the result dropped; the
  ideal pass rewrote nothing, so `preserves` is trivial.
-/
import proofs.«113055_j81570018885867_2_alg».proof.Defs
import proofs.«113055_j81570018885867_2_alg».proof.Proof.Gen.Kernel
import proofs.«113055_j81570018885867_2_alg».proof.Proof.Gen.Kernel.Skeleton
import proofs.«113055_j81570018885867_2_alg».proof.Proof.Gen.Kernel.Launch
import proofs.«113055_j81570018885867_2_alg».proof.Proof.Gen.Kernel.Points
import proofs.«113055_j81570018885867_2_alg».proof.Proof.Gen.Kernel.Frame
import proofs.«113055_j81570018885867_2_alg».proof.Proof.Gen.KernelIdeal
import proofs.«113055_j81570018885867_2_alg».proof.Proof.Gen.KernelIdeal.Skeleton
import proofs.«113055_j81570018885867_2_alg».proof.Proof.Gen.KernelIdeal.Launch
import proofs.«113055_j81570018885867_2_alg».proof.Proof.Gen.KernelIdeal.Points
import proofs.«113055_j81570018885867_2_alg».proof.Proof.Gen.KernelIdeal.Frame
import proofs.«113055_j81570018885867_2_alg».proof.Proof.Gen.ReferenceIdeal
import proofs.«113055_j81570018885867_2_alg».proof.Proof.Gen.Pre_finite_inputs
import proofs.«113055_j81570018885867_2_alg».proof.Proof.Gen.ReferenceIdeal.Run
import proofs.«113055_j81570018885867_2_alg».proof.Proof.Gen.ReferenceIdeal.Read
import proofs.«113055_j81570018885867_2_alg».proof.Proof.KernelValue
import proofs.«113055_j81570018885867_2_alg».proof.Proof.RefValue
import proofs.«113055_j81570018885867_2_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the soft assignment of the (real) points and centres. -/
theorem algebraic : Cert.algebraic_KernelIdeal_ReferenceIdeal := by
  intro m ρ m' ρ' hpre hagree
  have hfin : ∀ c : Dev Cert.KernelIdeal.nD,
      (∀ i, ∃ r : ℝ, Cert.KernelIdeal.HostArrays.pts m c i = (r : EReal))
        ∧ (∀ j, ∃ r : ℝ, Cert.KernelIdeal.HostArrays.cen m c j = (r : EReal)) :=
    fun c => Cert.SoftAssign.real_of_finite _ _ (hpre c)
  refine ⟨fun c => Cert.SoftAssign.assign (Cert.KernelIdeal.HostArrays.pts m c) (Cert.KernelIdeal.HostArrays.cen m c),
    Cert.KernelIdeal.KernelValue.run m ρ hfin, ?_⟩
  refine (θ_run Cert.ReferenceIdeal.defs _ _).mono (fun _ h c => ⟨?_, (h c).2⟩)
    (Cert.ReferenceIdeal.Value.run (F := Ideal) m' ρ')
  exact (h c).1.trans ((Cert.ReferenceIdeal.Read.val_main_v20_eq _ _).trans
    ((Cert.ReferenceIdeal.RefValue.ref_is_assign _ _).trans
      (congrArg₂ Cert.SoftAssign.assign (hagree c).1 (hagree c).2)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
